-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S2048x4096 : Shape := ⟨2, ![2048, 4096]⟩
abbrev S4096 : Shape := ⟨1, ![4096]⟩
abbrev S4096x4 : Shape := ⟨2, ![4096, 4]⟩
abbrev S4096x16 : Shape := ⟨2, ![4096, 16]⟩
abbrev S4096x2048 : Shape := ⟨2, ![4096, 2048]⟩
abbrev S2048 : Shape := ⟨1, ![2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_
  bcast_S_S4096x4 : S_.BroadcastsInDim S4096x4 (![] : Fin 0 → Fin S4096x4.rank)
  reducesTo_S4096x4_S_d0_1 : S4096x4.ReducesTo [0, 1] S_
  bcast_S_S4096x16 : S_.BroadcastsInDim S4096x16 (![] : Fin 0 → Fin S4096x16.rank)
  reducesTo_S4096x16_S_d0_1 : S4096x16.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_arg11 : FVec F S2048 .f32) (main_v48 : IVec S_ 1) (main_v49 : FVec F S4096x2048 .f32) (main_v50 : FVec F S4096x2048 .f32) : IVec S_ 1 :=
  let main_v51 : IVec S4096x2048 1 := cmpf .olt main_v49 main_v50
  let main_c_19 : IVec S_ 1 := constantI S_ 1 1#1
  let main_v52 : IVec S_ 1 := (fun x v => Host.reduce IntOp.andi x v reducesTo_S4096x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  main_v58

def fn_part2 {F : FTy → Type} [FloatOps F] (main_arg7 : FVec F S4096x16 .f32) (main_arg8 : FVec F S4096 .f32) (main_arg9 : FVec F S4096 .f32) (main_arg10 : FVec F S4096x2048 .f32) (main_arg11 : FVec F S2048 .f32) (main_v33 : IVec S_ 1) : IVec S_ 1 :=
  let main_v34 : FVec F S4096x16 .f32 := Host.absf main_arg7
  let main_cst_12 : FVec F S_ .f32 := constant S_ .f32 0x7F800000#32
  let main_v35 : FVec F S4096x16 .f32 := broadcastInDim S4096x16 ![] bcast_S_S4096x16 main_cst_12
  let main_v36 : IVec S4096x16 1 := cmpf .olt main_v34 main_v35
  let main_c_13 : IVec S_ 1 := constantI S_ 1 1#1
  let main_v37 : IVec S_ 1 := (fun x v => Host.reduce IntOp.andi x v reducesTo_S4096x16_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096x2048 .f32 := Host.absf main_arg10
  let main_cst_18 : FVec F S_ .f32 := constant S_ .f32 0x7F800000#32
  let main_v50 : FVec F S4096x2048 .f32 := broadcastInDim S4096x2048 ![] bcast_S_S4096x2048 main_cst_18
  fn_part3 (F := F) main_arg11 main_v48 main_v49 main_v50

def fn_part1 {F : FTy → Type} [FloatOps F] (main_arg4 : FVec F S4096 .f32) (main_arg5 : FVec F S4096x16 .f32) (main_arg6 : FVec F S4096x16 .f32) (main_arg7 : FVec F S4096x16 .f32) (main_arg8 : FVec F S4096 .f32) (main_arg9 : FVec F S4096 .f32) (main_arg10 : FVec F S4096x2048 .f32) (main_arg11 : FVec F S2048 .f32) (main_v13 : IVec S_ 1) (main_v16 : IVec S4096x4 1) : IVec S_ 1 :=
  let main_c_5 : IVec S_ 1 := constantI S_ 1 1#1
  let main_v17 : IVec S_ 1 := (fun x v => Host.reduce IntOp.andi x v reducesTo_S4096x4_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x16 .f32 := Host.absf main_arg5
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : IVec S_ 1 := andi main_v23 main_v27
  let main_v29 : FVec F S4096x16 .f32 := Host.absf main_arg6
  let main_cst_10 : FVec F S_ .f32 := constant S_ .f32 0x7F800000#32
  let main_v30 : FVec F S4096x16 .f32 := broadcastInDim S4096x16 ![] bcast_S_S4096x16 main_cst_10
  let main_v31 : IVec S4096x16 1 := cmpf .olt main_v29 main_v30
  let main_c_11 : IVec S_ 1 := constantI S_ 1 1#1
  let main_v32 : IVec S_ 1 := (fun x v => Host.reduce IntOp.andi x v reducesTo_S4096x16_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32768x2048 .f32) (main_arg1 : FVec F S2048x4096 .f32) (main_arg2 : FVec F S4096 .f32) (main_arg3 : FVec F S4096x4 .f32) (main_arg4 : FVec F S4096 .f32) (main_arg5 : FVec F S4096x16 .f32) (main_arg6 : FVec F S4096x16 .f32) (main_arg7 : FVec F S4096x16 .f32) (main_arg8 : FVec F S4096 .f32) (main_arg9 : FVec F S4096 .f32) (main_arg10 : FVec F S4096x2048 .f32) (main_arg11 : FVec F S2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4 .f32 := Host.absf main_arg3
  let main_cst_4 : FVec F S_ .f32 := constant S_ .f32 0x7F800000#32
  let main_v15 : FVec F S4096x4 .f32 := broadcastInDim S4096x4 ![] bcast_S_S4096x4 main_cst_4
  let main_v16 : IVec S4096x4 1 := cmpf .olt main_v14 main_v15
  fn_part1 (F := F) main_arg4 main_arg5 main_arg6 main_arg7 main_arg8 main_arg9 main_arg10 main_arg11 main_v13 main_v16
-- ==== Kernel.lean ====
abbrev S32768x2048 : Shape := ⟨2, ![32768, 2048]⟩
abbrev S2048x4096 : Shape := ⟨2, ![2048, 4096]⟩
abbrev S4096 : Shape := ⟨1, ![4096]⟩
abbrev S4096x4 : Shape := ⟨2, ![4096, 4]⟩
abbrev S4096x16 : Shape := ⟨2, ![4096, 16]⟩
abbrev S4096x2048 : Shape := ⟨2, ![4096, 2048]⟩
abbrev S2048 : Shape := ⟨1, ![2048]⟩
abbrev S_ : Shape := ⟨0, ![]⟩
abbrev S4096x1 : Shape := ⟨2, ![4096, 1]⟩
abbrev S1x4096 : Shape := ⟨2, ![1, 4096]⟩
abbrev S1x2048 : Shape := ⟨2, ![1, 2048]⟩
abbrev S32768x4096 : Shape := ⟨2, ![32768, 4096]⟩
abbrev S256x2048 : Shape := ⟨2, ![256, 2048]⟩
abbrev S256x4096 : Shape := ⟨2, ![256, 4096]⟩
abbrev S512x4096 : Shape := ⟨2, ![512, 4096]⟩
abbrev S512x2048 : Shape := ⟨2, ![512, 2048]⟩

abbrev nBuf : Space → Nat
  | .hbm => 43
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2048x4096, .f32⟩
  | .hbm, ⟨2, _⟩ => ⟨S4096, .f32⟩
  | .hbm, ⟨3, _⟩ => ⟨S4096x4, .f32⟩
  | .hbm, ⟨4, _⟩ => ⟨S4096, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S4096, .f32⟩
  | .hbm, ⟨9, _⟩ => ⟨S4096, .f32⟩
  | .hbm, ⟨10, _⟩ => ⟨S4096x2048, .f32⟩
  | .hbm, ⟨11, _⟩ => ⟨S2048, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .i1⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096x16, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096x1, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S1x4096, .f32⟩
  | .hbm, ⟨37, _⟩ => ⟨S1x4096, .f32⟩
  | .hbm, ⟨38, _⟩ => ⟨S1x2048, .f32⟩
  | .hbm, ⟨39, _⟩ => ⟨S2048x4096, .bf16⟩
  | .hbm, ⟨40, _⟩ => ⟨S4096x2048, .bf16⟩
  | .hbm, ⟨41, _⟩ => ⟨S32768x4096, .bf16⟩
  | .hbm, ⟨42, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S2048x4096, .bf16⟩
  | .local _ .vmem, ⟨3, _⟩ => ⟨S1x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | .local _ .vmem, ⟨7, _⟩ => ⟨S512x4096, .bf16⟩
  | .local _ .vmem, ⟨8, _⟩ => ⟨S512x4096, .bf16⟩
  | .local _ .vmem, ⟨9, _⟩ => ⟨S4096x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v0 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S4096 : S_.BroadcastsInDim S4096 (![] : Fin 0 → Fin S4096.rank)
  reducesTo_S4096x16_S4096_d1 : S4096x16.ReducesTo [1] S4096
  h_S_ : 0 < S_.numel
  slices_S4096x4_S4096x1_0_3 : S4096x4.Slices ![0, 3] S4096x1
  shapeCasts_S4096x1_S4096 : S4096x1.ShapeCasts S4096
  shapeCasts_S4096_S1x4096 : S4096.ShapeCasts S1x4096
  shapeCasts_S2048_S1x2048 : S2048.ShapeCasts S1x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S256x2048_S2048x4096_S256x4096_1_0_0_1_n_n_wf : DotDims.WF S256x2048 S2048x4096 S256x4096 [1] [0] [0] [1] [] []
  dot_S512x4096_S4096x2048_S512x2048_1_0_0_1_n_n_wf : DotDims.WF S512x4096 S4096x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S32768x2048.size a
  hwx0_0 : ∀ i : grid0.Coords, EltTy.bits .f32 = 32 ∨ (Rect.block (s := S32768x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S2048x4096.size a
  hwx0_1 : ∀ i : grid0.Coords, EltTy.bits .bf16 = 32 ∨ (Rect.block (s := S2048x4096) S2048x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S32768x4096.size a
  hwx0_4 : ∀ i : grid0.Coords, EltTy.bits .bf16 = 32 ∨ (Rect.block (s := S32768x4096) S256x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S32768x4096.size a
  hwx1_0 : ∀ i : grid1.Coords, EltTy.bits .bf16 = 32 ∨ (Rect.block (s := S32768x4096) S512x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x2048.size a ≤ S4096x2048.size a
  hwx1_1 : ∀ i : grid1.Coords, EltTy.bits .bf16 = 32 ∨ (Rect.block (s := S4096x2048) S4096x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S32768x2048.size a
  hwx1_3 : ∀ i : grid1.Coords, EltTy.bits .f32 = 32 ∨ (Rect.block (s := S32768x2048) S512x2048.size (cc1_transform_3 i) (hinb1_3 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf
def dot_S512x4096_S4096x2048_S512x2048_1_0_0_1_n_n : DotDims S512x4096 S4096x2048 S512x2048 where
  lhsContracting := [1]
  rhsContracting := [0]
  lhsNonContracting := [0]
  rhsNonContracting := [1]
  lhsBatch := []
  rhsBatch := []
  wf := dot_S512x4096_S4096x2048_S512x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4096x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32768x2048 : Shape := ⟨2, ![32768, 2048]⟩
abbrev S2048x4096 : Shape := ⟨2, ![2048, 4096]⟩
abbrev S4096 : Shape := ⟨1, ![4096]⟩
abbrev S4096x4 : Shape := ⟨2, ![4096, 4]⟩
abbrev S4096x16 : Shape := ⟨2, ![4096, 16]⟩
abbrev S4096x2048 : Shape := ⟨2, ![4096, 2048]⟩
abbrev S2048 : Shape := ⟨1, ![2048]⟩
abbrev S32768x4096 : Shape := ⟨2, ![32768, 4096]⟩
abbrev S1x4096 : Shape := ⟨2, ![1, 4096]⟩
abbrev S4096x1 : Shape := ⟨2, ![4096, 1]⟩
abbrev S_ : Shape := ⟨0, ![]⟩
abbrev S1x2048 : Shape := ⟨2, ![1, 2048]⟩

abbrev nBuf : Space → Nat
  | .hbm => 62
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x4096, .f32⟩
  | .hbm, ⟨2, _⟩ => ⟨S4096, .f32⟩
  | .hbm, ⟨3, _⟩ => ⟨S4096x4, .f32⟩
  | .hbm, ⟨4, _⟩ => ⟨S4096, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S4096, .f32⟩
  | .hbm, ⟨9, _⟩ => ⟨S4096, .f32⟩
  | .hbm, ⟨10, _⟩ => ⟨S4096x2048, .f32⟩
  | .hbm, ⟨11, _⟩ => ⟨S2048, .f32⟩
  | .hbm, ⟨12, _⟩ => ⟨S32768x4096, .f32⟩
  | .hbm, ⟨13, _⟩ => ⟨S1x4096, .f32⟩
  | .hbm, ⟨14, _⟩ => ⟨S32768x4096, .f32⟩
  | .hbm, ⟨15, _⟩ => ⟨S32768x4096, .f32⟩
  | .hbm, ⟨16, _⟩ => ⟨S4096x1, .f32⟩
  | .hbm, ⟨17, _⟩ => ⟨S4096, .f32⟩
  | .hbm, ⟨18, _⟩ => ⟨S1x4096, .f32⟩
  | .hbm, ⟨19, _⟩ => ⟨S32768x4096, .f32⟩
  | .hbm, ⟨20, _⟩ => ⟨S32768x4096, .f32⟩
  | .hbm, ⟨21, _⟩ => ⟨S1x4096, .f32⟩
  | .hbm, ⟨22, _⟩ => ⟨S32768x4096, .f32⟩
  | .hbm, ⟨23, _⟩ => ⟨S32768x4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .i1⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096x16, .f32⟩
  | .hbm, ⟨39, _⟩ => ⟨S4096x16, .f32⟩
  | .hbm, ⟨40, _⟩ => ⟨S4096x16, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S1x4096, .f32⟩
  | .hbm, ⟨46, _⟩ => ⟨S32768x4096, .f32⟩
  | .hbm, ⟨47, _⟩ => ⟨S32768x4096, .f32⟩
  | .hbm, ⟨48, _⟩ => ⟨S32768x4096, .f32⟩
  | .hbm, ⟨49, _⟩ => ⟨S32768x4096, .f32⟩
  | .hbm, ⟨50, _⟩ => ⟨S32768x4096, .f32⟩
  | .hbm, ⟨51, _⟩ => ⟨S_, .f32⟩
  | .hbm, ⟨52, _⟩ => ⟨S32768x4096, .f32⟩
  | .hbm, ⟨53, _⟩ => ⟨S32768x4096, .f32⟩
  | .hbm, ⟨54, _⟩ => ⟨S_, .f32⟩
  | .hbm, ⟨55, _⟩ => ⟨S32768x4096, .f32⟩
  | .hbm, ⟨56, _⟩ => ⟨S32768x4096, .f32⟩
  | .hbm, ⟨57, _⟩ => ⟨S32768x4096, .f32⟩
  | .hbm, ⟨58, _⟩ => ⟨S32768x2048, .f32⟩
  | .hbm, ⟨59, _⟩ => ⟨S1x2048, .f32⟩
  | .hbm, ⟨60, _⟩ => ⟨S32768x2048, .f32⟩
  | .hbm, ⟨61, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S32768x4096_0_1 : S1x4096.BroadcastsInDim S32768x4096 (![0, 1] : Fin 2 → Fin S32768x4096.rank)
  slices_S4096x4_S4096x1_0_3 : S4096x4.Slices ![0, 3] S4096x1
  shapeCasts_S4096x1_S4096 : S4096x1.ShapeCasts S4096
  bcast_S_S4096 : S_.BroadcastsInDim S4096 (![] : Fin 0 → Fin S4096.rank)
  reducesTo_S4096x16_S4096_d1 : S4096x16.ReducesTo [1] S4096
  h_S_ : 0 < S_.numel
  bcast_S_S32768x4096 : S_.BroadcastsInDim S32768x4096 (![] : Fin 0 → Fin S32768x4096.rank)
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  dot_S32768x2048_S2048x4096_S32768x4096_1_0_0_1_n_n_wf : DotDims.WF S32768x2048 S2048x4096 S32768x4096 [1] [0] [0] [1] [] []
  dot_S32768x4096_S4096x2048_S32768x2048_1_0_0_1_n_n_wf : DotDims.WF S32768x4096 S4096x2048 S32768x2048 [1] [0] [0] [1] [] []

variable [Facts₀]

def dot_S32768x2048_S2048x4096_S32768x4096_1_0_0_1_n_n : DotDims S32768x2048 S2048x4096 S32768x4096 where
  lhsContracting := [1]
  rhsContracting := [0]
  lhsNonContracting := [0]
  rhsNonContracting := [1]
  lhsBatch := []
  rhsBatch := []
  wf := dot_S32768x2048_S2048x4096_S32768x4096_1_0_0_1_n_n_wf
def dot_S32768x4096_S4096x2048_S32768x2048_1_0_0_1_n_n : DotDims S32768x4096 S4096x2048 S32768x2048 where
  lhsContracting := [1]
  rhsContracting := [0]
  lhsNonContracting := [0]
  rhsNonContracting := [1]
  lhsBatch := []
  rhsBatch := []
  wf := dot_S32768x4096_S4096x2048_S32768x2048_1_0_0_1_n_n_wf

class Facts : Prop extends Facts₀ where

variable [Facts]
-- ==== Proof.RealEntries.lean ====
/-
  Extended reals that are real numbers.

  An input of the programs ranges over the extended reals; the precondition makes every entry of every input a real
  number. Sums and products of real numbers are real numbers, and so are finite sums of them: the closure facts below
  are what lets an identity of the field of real numbers (distributivity, here) be used on the extended reals, where it
  fails at the infinities.
-/
import Idealize.ShloMosaic.PureOps.Ideal

namespace Cert.RealEntries

/-- The extended real `a` is (the image of) a real number: neither `⊤` nor `⊥`. -/
def IsReal (a : EReal) : Prop := ∃ r : ℝ, a = (r : EReal)

/-- Every entry of the array is a real number. -/
def AllReal {ι : Type} (x : ι → EReal) : Prop := ∀ i, IsReal (x i)

theorem isReal_coe (r : ℝ) : IsReal (r : EReal) := ⟨r, rfl⟩

theorem isReal_zero : IsReal 0 := ⟨0, rfl⟩

theorem isReal_one : IsReal 1 := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.neg {a : EReal} (ha : IsReal a) : IsReal (-a) := by
  obtain ⟨r, rfl⟩ := ha; exact ⟨-r, (EReal.coe_neg r).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.max {a b : EReal} (ha : IsReal a) (hb : IsReal b) : IsReal (max a b) := by
  rcases max_choice a b with h | h <;> rw [h] <;> assumption

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsReal.ne_top {a : EReal} (ha : IsReal a) : a ≠ ⊤ := by
  obtain ⟨r, rfl⟩ := ha; exact EReal.coe_ne_top r

theorem IsReal.ne_bot {a : EReal} (ha : IsReal a) : a ≠ ⊥ := by
  obtain ⟨r, rfl⟩ := ha; exact EReal.coe_ne_bot r

theorem isReal_of_ne {a : EReal} (h1 : a ≠ ⊤) (h2 : a ≠ ⊥) : IsReal a := by
  induction a using EReal.rec with
  | bot => exact absurd rfl h2
  | top => exact absurd rfl h1
  | coe r => exact ⟨r, rfl⟩

end Cert.RealEntries
-- ==== Proof.FiniteInputs.lean ====
/-
  The precondition "every float input is finite", read back at the extended reals.

  The printed precondition takes twelve arrays. For each one it forms the absolute value of every entry, compares it
  (strictly less) with the f32 pattern of plus infinity broadcast to the array's shape, and folds all the comparison bits
  by "and", starting from the bit 1, into a single bit; the twelve bits are joined by "and". Here the entries are
  extended reals, the pattern of plus infinity denotes the top element, and the absolute value of `a` is `max a (-a)`.

  If the joined bit is 1 then each of the twelve bits is 1 (an "and" of bits is 1 only when both are). A fold by "and"
  that started at 1 and ended at 1 met only 1s, so every comparison bit of that array is 1, which says
  `max a (-a) < ⊤` for every entry `a`. Of the three kinds of extended real, `⊤` gives `max ⊤ ⊥ = ⊤` and `⊥` gives
  `max ⊥ ⊤ = ⊤`, neither of which is below `⊤`; so `a` is a real number.

  The argument for one array is made once, over an arbitrary shape (`allReal_of_all`), and used for each argument.
-/
import proofs.«112826_j11158325035373_2_alg».proof.Pre_finite_inputs
import proofs.«112826_j11158325035373_2_alg».proof.Proof.RealEntries
import Idealize.ShloMosaic.Lib.ReduceAll
import Idealize.ShloMosaic.Lib.ValueIdx
import Idealize.ShloMosaic.Lib.IdealHost
import Idealize.ShloMosaic.PureOps.Ideal

namespace Cert.FiniteInputs

open Idealize.ShloMosaic Cert.Pre_finite_inputs Cert.RealEntries

/-- The shape of rank zero has exactly one index: there is no axis to give a coordinate for. -/
local instance : Subsingleton S_.Idx := ⟨fun a b => funext fun d => d.elim0⟩

/-- The f32 pattern with sign 0, all eight exponent bits set and a zero fraction denotes plus infinity. -/
theorem ofBits_inf_f32 : Ideal.ofBits .f32 0x7F800000#32 = (⊤ : EReal) := by
  simp [Ideal.ofBits, Ideal.ieee]

/-- An extended real whose absolute value `max a (-a)` is below `⊤` is a real number: at `a = ⊤` and at `a = ⊥` one of
`a`, `-a` is `⊤`, and so is the maximum. -/
theorem isReal_of_abs_lt_top {a : EReal} (h : max a (-a) < ⊤) : IsReal a := by
  induction a using EReal.rec with
  | bot => simp at h
  | top => simp at h
  | coe r => exact ⟨r, rfl⟩

/-- One comparison bit: if "`|a|` is strictly less than the pattern of plus infinity" holds, `a` is a real number. -/
theorem isReal_of_cmp (a : Ideal .f32)
    (h : FloatOps.cmpf .olt (FloatOps.hostAbsf a) (Ideal.ofBits .f32 0x7F800000#32) = 1#1) : IsReal a := by
  rw [Ideal.cmpf_def, Ideal.hostAbsf_def, Ideal.absf_def, ofBits_inf_f32] at h
  have h' : max a (-a) < ⊤ := by
    by_contra hn
    simp [Ideal.cmp, hn] at h
  exact isReal_of_abs_lt_top h'

/-- One array, of any shape: if the fold by "and" over all axes of the bits "`|x i|` is below plus infinity", started
at 1, is 1, then every entry of `x` is a real number. -/
theorem allReal_of_all {S : Shape} {axes : List (Fin S.rank)} (x : FVec Ideal S .f32)
    (hb : S_.BroadcastsInDim S (![] : Fin 0 → Fin S.rank)) (hred : S.ReducesTo axes S_) (hpos : 0 < S_.numel)
    (h : Host.reduce IntOp.andi
          (cmpf .olt (Host.absf x) (broadcastInDim S ![] hb (constant (F := Ideal) S_ .f32 0x7F800000#32)))
          (constantI S_ 1 1#1) hred hpos ValueIdx.ix0 = 1#1) : AllReal x := by
  intro i
  -- the fold ended at 1, so the bit at `i` is 1
  have e := Host.reduce_andi_all _ _ hred hpos ValueIdx.ix0 h i
  -- that bit compares `|x i|` with the scalar constant, which the broadcast reads at every index
  rw [ValueIdx.cmpf_apply, ValueIdx.broadcastInDim_scalar_apply, ValueIdx.constant_apply] at e
  exact isReal_of_cmp (x i) e

/-- An "and" of two one-bit arrays that is 1 at an index has both operands 1 there. -/
theorem andi_eq_one_at {s : Shape} (x y : IVec s 1) (i : s.Idx) (h : andi x y i = 1#1) : x i = 1#1 ∧ y i = 1#1 :=
  IntOp.andi_eq_one.1 h

/-- If the printed precondition holds of twelve arrays of extended reals, every entry of each of them (the sixth is
not needed later and is left out) is a real number. -/
theorem allReal_of_pre [Cert.Pre_finite_inputs.Facts]
    (a0 : FVec Ideal S32768x2048 .f32) (a1 : FVec Ideal S2048x4096 .f32) (a2 : FVec Ideal S4096 .f32) (a3 : FVec Ideal S4096x4 .f32)
    (a4 : FVec Ideal S4096 .f32) (a5 : FVec Ideal S4096x16 .f32) (a6 : FVec Ideal S4096x16 .f32) (a7 : FVec Ideal S4096x16 .f32)
    (a8 : FVec Ideal S4096 .f32) (a9 : FVec Ideal S4096 .f32) (a10 : FVec Ideal S4096x2048 .f32) (a11 : FVec Ideal S2048 .f32)
    (h : Cert.Pre_finite_inputs.fn (F := Ideal) a0 a1 a2 a3 a4 a5 a6 a7 a8 a9 a10 a11 = fun _ => 1#1) :
    AllReal a0 ∧ AllReal a1 ∧ AllReal a2 ∧ AllReal a3 ∧ AllReal a4 ∧ AllReal a6 ∧ AllReal a7 ∧ AllReal a8 ∧ AllReal a9 ∧ AllReal a10 ∧ AllReal a11 := by
  -- the result has one index; read the hypothesis there and lay the chain of operations open
  have h0 := congrFun h ValueIdx.ix0
  dsimp only [fn, fn_part1, fn_part2, fn_part3] at h0
  -- the twelve bits are joined from the left, so they come off from the last to the first
  obtain ⟨h0, e11⟩ := andi_eq_one_at _ _ _ h0
  obtain ⟨h0, e10⟩ := andi_eq_one_at _ _ _ h0
  obtain ⟨h0, e9⟩ := andi_eq_one_at _ _ _ h0
  obtain ⟨h0, e8⟩ := andi_eq_one_at _ _ _ h0
  obtain ⟨h0, e7⟩ := andi_eq_one_at _ _ _ h0
  obtain ⟨h0, e6⟩ := andi_eq_one_at _ _ _ h0
  obtain ⟨h0, _⟩ := andi_eq_one_at _ _ _ h0
  obtain ⟨h0, e4⟩ := andi_eq_one_at _ _ _ h0
  obtain ⟨h0, e3⟩ := andi_eq_one_at _ _ _ h0
  obtain ⟨h0, e2⟩ := andi_eq_one_at _ _ _ h0
  obtain ⟨e0, e1⟩ := andi_eq_one_at _ _ _ h0
  exact ⟨allReal_of_all a0 _ _ _ e0, allReal_of_all a1 _ _ _ e1, allReal_of_all a2 _ _ _ e2,
    allReal_of_all a3 _ _ _ e3, allReal_of_all a4 _ _ _ e4, allReal_of_all a6 _ _ _ e6,
    allReal_of_all a7 _ _ _ e7, allReal_of_all a8 _ _ _ e8, allReal_of_all a9 _ _ _ e9,
    allReal_of_all a10 _ _ _ e10, allReal_of_all a11 _ _ _ e11⟩

end Cert.FiniteInputs
-- ==== Proof.Spec.lean ====
/-
  One step of a gated state-space layer, as functions of its arrays.

  Rows `p` of the input `x` are projected to `4096` channels, `u p j = ∑ k, x (p, k) * w (k, j)`. Channel `j` carries
  the last tap `cl j` of a depthwise convolution with its offset `cb j`, a scan scale `ys j` and the projection's own
  offset `b j`. On a sequence of length one with a zero initial state the layer's pre-activation is
    `((u + b) * cl + cb) + (u + b) * ys`                                   (the direct form),
  which, when every quantity is a real number, is the affine map of `u`
    `u * (cl + ys) + (b * (cl + ys) + cb)`                                 (the folded form):
  multiplication distributes over addition in the field of real numbers (on the extended reals it does not at the
  infinities, so the hypothesis is used). The pre-activation passes through the gate `h ↦ h * (1 / (1 + e^(-h)))`, and
  the gated rows are projected back to `2048` columns with an offset.
-/
import Idealize.ShloMosaic.Lib.ValueIdx
import Idealize.ShloMosaic.PureOps.Ideal
import Idealize.ShloMosaic.PureOps.Ideal.Laws
import proofs.«112826_j11158325035373_2_alg».proof.Proof.RealEntries

noncomputable section

open scoped BigOperators

namespace Cert.GatedStep

open Idealize.ShloMosaic Idealize.ShloMosaic.ValueIdx Cert.RealEntries

/-! ## The functions -/

/-- The input projection at row `p` and channel `j`. -/
def proj (x : (⟨2, ![32768, 2048]⟩ : Shape).Idx → EReal) (w : (⟨2, ![2048, 4096]⟩ : Shape).Idx → EReal)
    (p : Fin 32768) (j : Fin 4096) : EReal :=
  ∑ k : Fin 2048, x (ix2 p k) * w (ix2 k j)

/-- The gate: `h` times the logistic function of `h`. -/
def gate (h : EReal) : EReal := h * Ideal.logistic h

/-- The folded form of the pre-activation: an affine map of the projection, channel by channel. -/
def preFolded (u b cl cb ys : EReal) : EReal := u * (cl + ys) + (b * (cl + ys) + cb)

/-- The direct form of the pre-activation: the convolution's last tap and the one-step scan, added. -/
def preDirect (u b cl cb ys : EReal) : EReal := ((u + b) * cl + cb) + (u + b) * ys

/-- The gated activations, from the folded pre-activation, as a `32768 × 4096` array. -/
def actArr (x : (⟨2, ![32768, 2048]⟩ : Shape).Idx → EReal) (w : (⟨2, ![2048, 4096]⟩ : Shape).Idx → EReal)
    (b cl cb ys : (⟨1, ![4096]⟩ : Shape).Idx → EReal) : (⟨2, ![32768, 4096]⟩ : Shape).Idx → EReal := fun i =>
  gate (preFolded (proj x w ⟨(i 0).val, (i 0).isLt⟩ ⟨(i 1).val, (i 1).isLt⟩) (b (ix1 ⟨(i 1).val, (i 1).isLt⟩))
    (cl (ix1 ⟨(i 1).val, (i 1).isLt⟩)) (cb (ix1 ⟨(i 1).val, (i 1).isLt⟩)) (ys (ix1 ⟨(i 1).val, (i 1).isLt⟩)))

/-- The output projection of an array of activations, with its offset, as a `32768 × 2048` array. -/
def outArr (A : (⟨2, ![32768, 4096]⟩ : Shape).Idx → EReal) (ow : (⟨2, ![4096, 2048]⟩ : Shape).Idx → EReal)
    (ob : (⟨1, ![2048]⟩ : Shape).Idx → EReal) : (⟨2, ![32768, 2048]⟩ : Shape).Idx → EReal := fun i =>
  (∑ j : Fin 4096, A (ix2 ⟨(i 0).val, (i 0).isLt⟩ j) * ow (ix2 j ⟨(i 1).val, (i 1).isLt⟩)) + ob (ix1 ⟨(i 1).val, (i 1).isLt⟩)

theorem actArr_ix2 (x : (⟨2, ![32768, 2048]⟩ : Shape).Idx → EReal) (w : (⟨2, ![2048, 4096]⟩ : Shape).Idx → EReal)
    (b cl cb ys : (⟨1, ![4096]⟩ : Shape).Idx → EReal) (p : Fin 32768) (j : Fin 4096) :
    actArr x w b cl cb ys (ix2 p j)
      = gate (preFolded (proj x w p j) (b (ix1 j)) (cl (ix1 j)) (cb (ix1 j)) (ys (ix1 j))) := rfl

theorem outArr_ix2 (A : (⟨2, ![32768, 4096]⟩ : Shape).Idx → EReal) (ow : (⟨2, ![4096, 2048]⟩ : Shape).Idx → EReal)
    (ob : (⟨1, ![2048]⟩ : Shape).Idx → EReal) (p : Fin 32768) (l : Fin 2048) :
    outArr A ow ob (ix2 p l) = (∑ j : Fin 4096, A (ix2 p j) * ow (ix2 j l)) + ob (ix1 l) := rfl

/-! ## The law that joins the two forms -/

/-- On real numbers the direct form is the folded form: distributivity, twice. -/
theorem preDirect_eq_preFolded {u b cl cb ys : EReal} (hu : IsReal u) (hb : IsReal b) (hcl : IsReal cl)
    (hcb : IsReal cb) (hys : IsReal ys) : preDirect u b cl cb ys = preFolded u b cl cb ys := by
  obtain ⟨u, rfl⟩ := hu; obtain ⟨b, rfl⟩ := hb; obtain ⟨cl, rfl⟩ := hcl; obtain ⟨cb, rfl⟩ := hcb; obtain ⟨ys, rfl⟩ := hys
  unfold preDirect preFolded
  simp only [← EReal.coe_add, ← EReal.coe_mul]
  exact congrArg _ (by ring)

/-- The projection of real arrays is real: a finite sum of products. -/
theorem proj_isReal {x : (⟨2, ![32768, 2048]⟩ : Shape).Idx → EReal} {w : (⟨2, ![2048, 4096]⟩ : Shape).Idx → EReal}
    (hx : AllReal x) (hw : AllReal w) (p : Fin 32768) (j : Fin 4096) : IsReal (proj x w p j) :=
  isReal_sum _ _ fun k _ => (hx _).mul (hw _)

/-! ## The gate, spelt with a quotient -/

/-- The pattern of the single-precision one denotes the real number one. -/
theorem ofBits_one_f32 : Ideal.ofBits .f32 0x3F800000#32 = 1 := IdealRules.sign_bit.ideal_onePat .f32

/-- The gate written as a host program writes it, `h * (1 / (1 + e^(-h)))` with the ones as patterns, is the gate. -/
theorem gate_quotient (h : EReal) :
    h * Ideal.div (Ideal.ofBits .f32 0x3F800000#32) (Ideal.ofBits .f32 0x3F800000#32 + Ideal.exp (-h)) = gate h := by
  rw [ofBits_one_f32]; rfl

/-! ## The softplus of a real number is a real number -/

/-- `softplus d = log (1 + e^d)`, as it is computed: `max d 0 + log1p (e^(-|d - 0|))`, guarded by a test that `d - 0`
    differs from itself, which no extended real does (the guard's other branch is `d + 0`). The zeros are the pattern
    of the single-precision zero. -/
def softplusAt (d : EReal) : EReal :=
  Scalar.select
    (FloatOps.cmpf (F := Ideal) (φ := .f32) .une (d - Ideal.ofBits .f32 0x00000000#32) (d - Ideal.ofBits .f32 0x00000000#32))
    (d + Ideal.ofBits .f32 0x00000000#32)
    (max d (Ideal.ofBits .f32 0x00000000#32)
      + Ideal.log1p (Ideal.exp (-(FloatOps.absf (F := Ideal) (φ := .f32) (d - Ideal.ofBits .f32 0x00000000#32)))))

/-- `log (1 + e^t)` of a real `t` is real: `1 + e^t` is a positive real. -/
theorem log1p_exp_isReal (t : ℝ) : IsReal (Ideal.log1p (Ideal.exp (t : EReal))) := by
  have hpos : (0 : ℝ) < 1 + Real.exp t := by positivity
  unfold Ideal.log1p
  rw [Ideal.exp_coe, ← EReal.coe_one, ← EReal.coe_add, Ideal.log_coe, if_neg (not_le.mpr hpos)]
  exact isReal_coe _

theorem softplusAt_isReal {d : EReal} (hd : IsReal d) : IsReal (softplusAt d) := by
  obtain ⟨r, rfl⟩ := hd
  unfold softplusAt
  rw [Ideal.ofBits_zero_f32]
  unfold Scalar.select
  split
  · exact (isReal_coe r).add isReal_zero
  · refine ((isReal_coe r).max isReal_zero).add ?_
    have habs : IsReal (FloatOps.absf (F := Ideal) (φ := .f32) ((r : EReal) - 0)) := by
      rw [Ideal.absf_def]
      exact ((isReal_coe r).sub isReal_zero).max ((isReal_coe r).sub isReal_zero).neg
    obtain ⟨a, ha⟩ := habs
    rw [ha, ← EReal.coe_neg]
    exact log1p_exp_isReal _

end Cert.GatedStep

end
-- ==== Proof.RefValue.lean ====
/-
  The reference program's result as a function of its arguments, when every entry is a real number.

  The program projects the rows of `x` to 4096 channels and adds an offset, `xi = x · w + b`; multiplies by the last tap
  of a depthwise convolution and adds that convolution's offset, `xi * cl + cb`; multiplies `xi` by a scan scale
  `ys = softplus(dt) * (∑ n, B n * C n) + D`, one number per channel; adds the two, passes the sum through the gate
  `h ↦ h * (1 / (1 + e^(-h)))`, and projects the gated rows back to 2048 columns with an offset.

  Read at row `p` and channel `j`, the sum before the gate is the direct form of the pre-activation,
  `((u + b) * cl + cb) + (u + b) * ys` with `u` the projection. When `u`, `b`, `cl`, `cb` and `ys` are real numbers this is
  the folded form `u * (cl + ys) + (b * (cl + ys) + cb)`, by distributivity. The last tap is an entry of the convolution
  kernel, so it is real when the kernel is; the scan scale is a sum and product of the softplus of a real number, a
  finite sum of products of real numbers, and a real number, so it is real. The output projection is the same finite
  sum on both sides, term by term, so nothing is asked of the output weights and offset.

  Each layout operation of the program (a broadcast of a channel vector along the rows, a slice, a reshape) reads its
  operand at an index computed from the result's index; at an index given by its coordinates these computed indices
  are again indices given by coordinates, which is all the first section below says.
-/
import proofs.«112826_j11158325035373_2_alg».proof.Proof.Gen.ReferenceIdeal.Read
import proofs.«112826_j11158325035373_2_alg».proof.Proof.Spec
import proofs.«112826_j11158325035373_2_alg».proof.Proof.RealEntries
import Idealize.ShloMosaic.Lib.ValueIdx
import Idealize.ShloMosaic.PureOps.Ideal
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.GatedStep Cert.RealEntries

/-! ## The per-channel quantities are real numbers -/

/-- the convolution's last tap per channel is real when the kernel array is -/
theorem lastTap_allReal (a3 : (⟨S4096x4, .f32⟩ : BufTy).Contents (Elt Ideal)) (h3 : AllReal a3) :
    AllReal (val_main_v5 (F := Ideal) a3) := by
  intro i
  -- the tap at a channel is one entry of the kernel array
  rw [val_main_v5_apply, val_main_v4_apply]
  exact h3 _

/-- The softplus stage at a channel is the function `softplusAt` of that channel's entry: every zero it meets is the
same scalar constant read through a broadcast. -/
theorem softplus_apply (a9 : (⟨S4096, .f32⟩ : BufTy).Contents (Elt Ideal)) (i : S4096.Idx) :
    val_main_v12 (F := Ideal) a9 i = softplusAt (a9 i) := by
  rw [val_main_v12_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  rfl

/-- The sum over the sixteen states of `B n * C n` at a channel, started from zero, is real when `B` and `C` are. -/
theorem scanSum_isReal (a6 a7 : (⟨S4096x16, .f32⟩ : BufTy).Contents (Elt Ideal)) (h6 : AllReal a6) (h7 : AllReal a7)
    (i : S4096.Idx) : IsReal (val_main_v16 (F := Ideal) a6 a7 i) := by
  rw [val_main_v16_apply, val_main_cst_apply, Ideal.ofBits_def, Ideal.ofBits_zero_f32]
  refine isReal_zero.add (isReal_sum _ _ fun k _ => ?_)
  rw [val_main_v15_apply, Ideal.mulf_def]
  exact (h6 _).mul (h7 _)

/-- the scan scale per channel is real when B, C, D and dt are -/
theorem scanScale_allReal (a6 a7 : (⟨S4096x16, .f32⟩ : BufTy).Contents (Elt Ideal)) (a8 a9 : (⟨S4096, .f32⟩ : BufTy).Contents (Elt Ideal))
    (h6 : AllReal a6) (h7 : AllReal a7) (h8 : AllReal a8) (h9 : AllReal a9) :
    AllReal (val_main_v18 (F := Ideal) a6 a7 a8 a9) := by
  intro i
  -- softplus(dt) * (∑ n, B n * C n) + D, each factor and term real
  rw [val_main_v18_apply, val_main_v17_apply, softplus_apply, Ideal.addf_def, Ideal.mulf_def]
  exact ((softplusAt_isReal (h9 i)).mul (scanSum_isReal a6 a7 h6 h7 i)).add (h8 i)

/-! ## The layout operations' computed indices, at an index given by coordinates -/

/-- In the input projection at `(p, j)`, term `k` reads the left operand at `(p, k)`. -/
theorem lidx0_eq (p : Fin 32768) (j : Fin 4096) (k : Fin 2048) : lidx_main_v0 (ix2 p j) k = ix2 p k :=
  funext fun a => by match a with | ⟨0, _⟩ => rfl | ⟨1, _⟩ => rfl

/-- In the input projection at `(p, j)`, term `k` reads the right operand at `(k, j)`. -/
theorem ridx0_eq (p : Fin 32768) (j : Fin 4096) (k : Fin 2048) : ridx_main_v0 (ix2 p j) k = ix2 k j :=
  funext fun a => by match a with | ⟨0, _⟩ => rfl | ⟨1, _⟩ => rfl

/-- In the output projection at `(p, l)`, term `j` reads the left operand at `(p, j)`. -/
theorem lidx24_eq (p : Fin 32768) (l : Fin 2048) (j : Fin 4096) : lidx_main_v24 (ix2 p l) j = ix2 p j :=
  funext fun a => by match a with | ⟨0, _⟩ => rfl | ⟨1, _⟩ => rfl

/-- In the output projection at `(p, l)`, term `j` reads the right operand at `(j, l)`. -/
theorem ridx24_eq (p : Fin 32768) (l : Fin 2048) (j : Fin 4096) : ridx_main_v24 (ix2 p l) j = ix2 j l :=
  funext fun a => by match a with | ⟨0, _⟩ => rfl | ⟨1, _⟩ => rfl

/-- A channel vector broadcast along the rows is read, at `(p, j)`, at channel `j`. -/
theorem chan_idx_eq (p : Fin 32768) (j : Fin 4096) : idx_main_v1 (idx_main_v2 (ix2 p j)) = ix1 j :=
  funext fun a => by match a with | ⟨0, _⟩ => rfl

/-- A column vector broadcast along the rows is read, at `(p, l)`, at column `l`. -/
theorem col_idx_eq (p : Fin 32768) (l : Fin 2048) : idx_main_v25 (idx_main_v26 (ix2 p l)) = ix1 l :=
  funext fun a => by match a with | ⟨0, _⟩ => rfl

/-! ## The stages at an index -/

/-- `xi = x · w + b` at row `p` and channel `j`. -/
theorem xi_apply (a0 : (⟨S32768x2048, .f32⟩ : BufTy).Contents (Elt Ideal)) (a1 : (⟨S2048x4096, .f32⟩ : BufTy).Contents (Elt Ideal))
    (a2 : (⟨S4096, .f32⟩ : BufTy).Contents (Elt Ideal)) (p : Fin 32768) (j : Fin 4096) :
    val_main_v3 (F := Ideal) a0 a1 a2 (ix2 p j) = proj a0 a1 p j + a2 (ix1 j) := by
  rw [val_main_v3_apply, val_main_v0_apply, val_main_v2_apply, val_main_v1_apply, Ideal.addf_def]
  unfold proj
  refine congrArg₂ (· + ·) (Finset.sum_congr rfl fun k _ => ?_) (congrArg a2 (chan_idx_eq p j))
  rw [lidx0_eq, ridx0_eq]

/-- The last tap, broadcast along the rows, at `(p, j)` is the tap of channel `j`. -/
theorem tap_apply (a3 : (⟨S4096x4, .f32⟩ : BufTy).Contents (Elt Ideal)) (p : Fin 32768) (j : Fin 4096) :
    val_main_v7 (F := Ideal) a3 (ix2 p j) = val_main_v5 (F := Ideal) a3 (ix1 j) := by
  rw [val_main_v7_apply, val_main_v6_apply]
  exact congrArg _ (chan_idx_eq p j)

/-- The convolution's offset, broadcast along the rows, at `(p, j)` is the offset of channel `j`. -/
theorem convOffset_apply (a4 : (⟨S4096, .f32⟩ : BufTy).Contents (Elt Ideal)) (p : Fin 32768) (j : Fin 4096) :
    val_main_v10 (F := Ideal) a4 (ix2 p j) = a4 (ix1 j) := by
  rw [val_main_v10_apply, val_main_v9_apply]
  exact congrArg _ (chan_idx_eq p j)

/-- The scan scale, broadcast along the rows, at `(p, j)` is the scale of channel `j`. -/
theorem scale_apply (a6 a7 : (⟨S4096x16, .f32⟩ : BufTy).Contents (Elt Ideal)) (a8 a9 : (⟨S4096, .f32⟩ : BufTy).Contents (Elt Ideal))
    (p : Fin 32768) (j : Fin 4096) :
    val_main_v20 (F := Ideal) a6 a7 a8 a9 (ix2 p j) = val_main_v18 (F := Ideal) a6 a7 a8 a9 (ix1 j) := by
  rw [val_main_v20_apply, val_main_v19_apply]
  exact congrArg _ (chan_idx_eq p j)

/-- The sum before the gate at `(p, j)` is the direct form of the pre-activation: `(xi * cl + cb) + xi * ys`. -/
theorem pre_apply (a0 : (⟨S32768x2048, .f32⟩ : BufTy).Contents (Elt Ideal)) (a1 : (⟨S2048x4096, .f32⟩ : BufTy).Contents (Elt Ideal))
    (a2 : (⟨S4096, .f32⟩ : BufTy).Contents (Elt Ideal)) (a3 : (⟨S4096x4, .f32⟩ : BufTy).Contents (Elt Ideal)) (a4 : (⟨S4096, .f32⟩ : BufTy).Contents (Elt Ideal))
    (a6 a7 : (⟨S4096x16, .f32⟩ : BufTy).Contents (Elt Ideal)) (a8 a9 : (⟨S4096, .f32⟩ : BufTy).Contents (Elt Ideal))
    (p : Fin 32768) (j : Fin 4096) :
    val_main_v22 (F := Ideal) a0 a1 a2 a3 a4 a6 a7 a8 a9 (ix2 p j)
      = preDirect (proj a0 a1 p j) (a2 (ix1 j)) (val_main_v5 (F := Ideal) a3 (ix1 j)) (a4 (ix1 j))
          (val_main_v18 (F := Ideal) a6 a7 a8 a9 (ix1 j)) := by
  rw [val_main_v22_apply, val_main_v11_apply, val_main_v8_apply, val_main_v21_apply, xi_apply, tap_apply,
    convOffset_apply, scale_apply]
  rfl

/-- The gated activation at any index is the gate of the sum before it: `h * (1 / (1 + e^(-h)))`, both ones the same
scalar constant read through a broadcast. -/
theorem act_apply (a0 : (⟨S32768x2048, .f32⟩ : BufTy).Contents (Elt Ideal)) (a1 : (⟨S2048x4096, .f32⟩ : BufTy).Contents (Elt Ideal))
    (a2 : (⟨S4096, .f32⟩ : BufTy).Contents (Elt Ideal)) (a3 : (⟨S4096x4, .f32⟩ : BufTy).Contents (Elt Ideal)) (a4 : (⟨S4096, .f32⟩ : BufTy).Contents (Elt Ideal))
    (a6 a7 : (⟨S4096x16, .f32⟩ : BufTy).Contents (Elt Ideal)) (a8 a9 : (⟨S4096, .f32⟩ : BufTy).Contents (Elt Ideal))
    (i : S32768x4096.Idx) :
    val_main_v23 (F := Ideal) a0 a1 a2 a3 a4 a6 a7 a8 a9 i
      = gate (val_main_v22 (F := Ideal) a0 a1 a2 a3 a4 a6 a7 a8 a9 i) := by
  rw [val_main_v23_apply, val_main_call1_v5_apply, val_main_call1_v4_apply, val_main_call1_cst_0_apply,
    val_main_call1_v3_apply, val_main_call1_v2_apply, val_main_call1_cst_apply, val_main_call1_v1_apply,
    val_main_call1_v0_apply]
  exact gate_quotient _

/-! ## The result -/

/-- THE RESULT: the reference's result array is the output projection of the gated folded pre-activation -/
theorem result_eq (a0 : (⟨S32768x2048, .f32⟩ : BufTy).Contents (Elt Ideal)) (a1 : (⟨S2048x4096, .f32⟩ : BufTy).Contents (Elt Ideal))
    (a2 : (⟨S4096, .f32⟩ : BufTy).Contents (Elt Ideal)) (a3 : (⟨S4096x4, .f32⟩ : BufTy).Contents (Elt Ideal)) (a4 : (⟨S4096, .f32⟩ : BufTy).Contents (Elt Ideal))
    (a6 a7 : (⟨S4096x16, .f32⟩ : BufTy).Contents (Elt Ideal)) (a8 a9 : (⟨S4096, .f32⟩ : BufTy).Contents (Elt Ideal))
    (a10 : (⟨S4096x2048, .f32⟩ : BufTy).Contents (Elt Ideal)) (a11 : (⟨S2048, .f32⟩ : BufTy).Contents (Elt Ideal))
    (h0 : AllReal a0) (h1 : AllReal a1) (h2 : AllReal a2) (h3 : AllReal a3) (h4 : AllReal a4) (h6 : AllReal a6) (h7 : AllReal a7) (h8 : AllReal a8) (h9 : AllReal a9) :
    val_main_v27 (F := Ideal) a0 a1 a2 a3 a4 a6 a7 a8 a9 a10 a11
      = outArr (actArr a0 a1 a2 (val_main_v5 (F := Ideal) a3) a4 (val_main_v18 (F := Ideal) a6 a7 a8 a9)) a10 a11 := by
  funext i
  obtain ⟨p, l, rfl⟩ : ∃ (p : Fin 32768) (l : Fin 2048), i = ix2 p l := ⟨i 0, i 1, eq_ix2 i⟩
  -- both sides at (p, l): a sum over the channels plus the offset of column l
  rw [outArr_ix2, val_main_v27_apply, val_main_v24_apply, val_main_v26_apply, val_main_v25_apply, Ideal.addf_def]
  refine congrArg₂ (· + ·) (Finset.sum_congr rfl fun j _ => ?_) (congrArg a11 (col_idx_eq p l))
  -- term j: the gate of the direct form, which on real numbers is the gate of the folded form
  rw [lidx24_eq, ridx24_eq, act_apply, pre_apply, actArr_ix2,
    preDirect_eq_preFolded (proj_isReal h0 h1 p j) (h2 _) (lastTap_allReal a3 h3 _) (h4 _)
      (scanScale_allReal a6 a7 a8 a9 h6 h7 h8 h9 _)]

end Cert.ReferenceIdeal.RefValue

end
-- ==== Proof.KernelRun.lean ====
/-
  The run of the two-stage program with its result named.

  The program is a stretch of host operations (the per-channel scale and offset, the two weight matrices narrowed), the
  first pipelined stage (rows of `x` to gated activations) and the second (activations to output rows). Every weakly fair
  execution terminates without a fault; afterwards the result array holds what the last stage's write-backs leave — the
  contents `W4` of the last boundary, read at the result's buffer, which is the fold `arrAt` of the second stage's
  flushed blocks over its grid — and every argument array is as launched.
-/
import proofs.«112826_j11158325035373_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last boundary's contents at the result's buffer are the second stage's output array after its whole grid. -/
theorem result_eq (c : Dev nD) :
    W4 m ρ c (Proc.devRef .tc main_v16) = (dat1 (V3 m ρ) c).arrAt 3 cfg1.N :=
  W4_arr m ρ c 3

/-- The first stage's output array, as the second stage finds it, is the first stage's array after its whole grid. -/
theorem act_eq (c : Dev nD) :
    V3 m ρ c main_v15 = (dat0 (V2 m ρ) c).arrAt 4 cfg0.N :=
  W3_arr m ρ c 4

set_option backward.isDefEq.respectTransparency.types false in
/-- Every weakly fair execution terminates, nothing faulting, with the result at the last boundary's contents and the
    arguments as launched. -/
theorem run : θ_run defs (onTc (τ := τ) (main (F := F))) ⟨m, fun _ => 0, ρ⟩ (fun r => ∀ c : Dev nD,
      r.2.mem ((c.tc : Thread nD τ).loc main_v16) = W4 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v16 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Named

end
-- ==== Proof.LibPlainDot.lean ====
/-
  A plain matrix product read at an index, at the ideal values.

  The dimension numbers `DotDims.plain M K N` contract the second axis of an `M × K` left operand with the first axis of a
  `K × N` right operand. At the ideal instance a `tpu.matmul` with these numbers into the zero accumulator, and the
  host's `dot_general` with the same numbers, are both — at the result index `(p, q)` — the finite sum over `k : Fin K`
  of `lhs (p, k) * rhs (k, q)` on the extended reals. Nothing is assumed of `M`, `K`, `N` or of the operands' formats.

  The proof names the two operand indices coordinate by coordinate (`lhsIdx_plain`, `rhsIdx_plain`: a batch-free,
  single-contraction record sends `(p, q)` and `k` to `(p, k)` and `(k, q)`) and re-indexes the one-axis contraction shape
  by its coordinate.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : Nat)

/-- The one-axis contraction shape of a plain product, identified with `Fin K`. -/
abbrev contrFin : (DotDims.plain M K N).contr.Idx ≃ Fin K := contrEquiv1 (DotDims.plain M K N) K rfl rfl

/-- The left operand's index at result index `(p, q)` and contraction coordinate `k` is `(p, k)`. -/
theorem lhsIdx_plain (p : Fin M) (q : Fin N) (k : Fin K) :
    (DotDims.plain M K N).lhsIdx (ix2 p q) ((contrFin M K N).symm k) = ix2 p k := by
  funext a
  apply Fin.ext
  match a with
  | ⟨0, _⟩ =>
    show ((DotDims.plain M K N).lhsIdx (ix2 p q) ((contrFin M K N).symm k) (0 : Fin 2)).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    show ((DotDims.plain M K N).lhsIdx (ix2 p q) ((contrFin M K N).symm k) (1 : Fin 2)).val = k.val
    exact ((DotDims.plain M K N).lhsIdx_val_of_single rfl _ _).trans
      (contrEquiv1_symm_val (DotDims.plain M K N) K rfl rfl k)

/-- The right operand's index at result index `(p, q)` and contraction coordinate `k` is `(k, q)`. -/
theorem rhsIdx_plain (p : Fin M) (q : Fin N) (k : Fin K) :
    (DotDims.plain M K N).rhsIdx (ix2 p q) ((contrFin M K N).symm k) = ix2 k q := by
  funext a
  apply Fin.ext
  match a with
  | ⟨0, _⟩ =>
    show ((DotDims.plain M K N).rhsIdx (ix2 p q) ((contrFin M K N).symm k) (0 : Fin 2)).val = k.val
    exact ((DotDims.plain M K N).rhsIdx_val_of_single rfl _ _).trans
      (contrEquiv1_symm_val (DotDims.plain M K N) K rfl rfl k)
  | ⟨1, _⟩ =>
    show ((DotDims.plain M K N).rhsIdx (ix2 p q) ((contrFin M K N).symm k) (1 : Fin 2)).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)`, over `Fin K`. -/
theorem sum_plain (lhs : (⟨2, ![M, K]⟩ : Shape).Idx → EReal) (rhs : (⟨2, ![K, N]⟩ : Shape).Idx → EReal) (p : Fin M) (q : Fin N) :
    (∑ c : (DotDims.plain M K N).contr.Idx,
        lhs ((DotDims.plain M K N).lhsIdx (ix2 p q) c) * rhs ((DotDims.plain M K N).rhsIdx (ix2 p q) c))
      = ∑ k : Fin K, lhs (ix2 p k) * rhs (ix2 k q) := by
  rw [← Equiv.sum_comp (contrFin M K N).symm]
  exact Finset.sum_congr rfl fun k _ => by rw [lhsIdx_plain, rhsIdx_plain]

/-- A `tpu.matmul` with plain dimension numbers into the zero accumulator, at the ideal values, read at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain M K N lhs rhs p q)

/-- The host's `dot_general` with plain dimension numbers, at the ideal values, read at `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain M K N lhs rhs p q)

end Cert.Lib.PlainDot

end
-- ==== Proof.KernelBody.lean ====
/-
  What each stage's body stores, read at an index, at the ideal values.

  The first stage's body, on a block of `256` rows of `x`, the whole narrowed weight matrix and the two one-row arrays
  of per-channel scale `s` and offset `t`, stores at `(p, q)` the gate of `(∑ k, x (p, k) * w (k, q)) * s q + t q`: a
  change of float format is the identity on the extended reals, the matrix product into the zero accumulator is the plain
  sum, a one-row array broadcast over the rows is read at its one row, and the logistic function times its argument is the
  gate. The second stage's body, on a block of `512` rows of activations, the whole second weight matrix and the one-row
  offset `o`, stores at `(p, l)` the sum `(∑ j, a (p, j) * w' (j, l)) + o l`.
-/
import proofs.«112826_j11158325035373_2_alg».proof.Proof.Gen.KernelIdeal.Skeleton
import proofs.«112826_j11158325035373_2_alg».proof.Proof.LibPlainDot
import proofs.«112826_j11158325035373_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.GatedStep

/-- The first stage's dimension numbers are the plain ones: `256 × 2048` by `2048 × 4096`. -/
theorem dims_in : dot_S256x2048_S2048x4096_S256x4096_1_0_0_1_n_n = DotDims.plain 256 2048 4096 := rfl

/-- The second stage's dimension numbers are the plain ones: `512 × 4096` by `4096 × 2048`. -/
theorem dims_out : dot_S512x4096_S4096x2048_S512x2048_1_0_0_1_n_n = DotDims.plain 512 4096 2048 := rfl

/-- The first stage's stored value at `(p, q)`. -/
theorem stored_in (x0 : FVec Ideal S256x2048 .f32) (x1 : FVec Ideal S2048x4096 .bf16) (x2 x3 : FVec Ideal S1x4096 .f32)
    (p : Fin 256) (q : Fin 4096) :
    k0_pay1 (F := Ideal) x0 x1 x2 x3 (ix2 p q)
      = gate ((∑ k : Fin 2048, x0 (ix2 p k) * x1 (ix2 k q)) * x2 (ix2 (0 : Fin 1) q) + x3 (ix2 (0 : Fin 1) q)) := by
  have hM : matmul (F := Ideal) dot_S256x2048_S2048x4096_S256x4096_1_0_0_1_n_n none (truncf .bf16 x0 bitsLt_bf16_f32)
        (shapeCast S2048x4096 x1 shapeCasts_S2048x4096_S2048x4096) (constant S256x4096 .f32 0x00000000#32) (ix2 p q)
      = ∑ k : Fin 2048, x0 (ix2 p k) * x1 (ix2 k q) := by
    rw [shapeCast_self, dims_in]
    exact Cert.Lib.PlainDot.matmul_zero_apply 256 2048 4096 none (truncf .bf16 x0 bitsLt_bf16_f32) x1 p q
  have hS : broadcastTo S256x4096 (shapeCast S1x4096 x2 shapeCasts_S1x4096_S1x4096) broadcasts_S1x4096_S256x4096 (ix2 p q)
      = x2 (ix2 (0 : Fin 1) q) := by
    rw [shapeCast_self]; exact broadcastTo_1b_ab_apply x2 broadcasts_S1x4096_S256x4096 p q
  have hT : broadcastTo S256x4096 (shapeCast S1x4096 x3 shapeCasts_S1x4096_S1x4096) broadcasts_S1x4096_S256x4096 (ix2 p q)
      = x3 (ix2 (0 : Fin 1) q) := by
    rw [shapeCast_self]; exact broadcastTo_1b_ab_apply x3 broadcasts_S1x4096_S256x4096 p q
  unfold k0_pay1
  show (matmul (F := Ideal) dot_S256x2048_S2048x4096_S256x4096_1_0_0_1_n_n none (truncf .bf16 x0 bitsLt_bf16_f32)
          (shapeCast S2048x4096 x1 shapeCasts_S2048x4096_S2048x4096) (constant S256x4096 .f32 0x00000000#32) (ix2 p q)
        * broadcastTo S256x4096 (shapeCast S1x4096 x2 shapeCasts_S1x4096_S1x4096) broadcasts_S1x4096_S256x4096 (ix2 p q)
        + broadcastTo S256x4096 (shapeCast S1x4096 x3 shapeCasts_S1x4096_S1x4096) broadcasts_S1x4096_S256x4096 (ix2 p q))
      * Ideal.logistic (matmul (F := Ideal) dot_S256x2048_S2048x4096_S256x4096_1_0_0_1_n_n none (truncf .bf16 x0 bitsLt_bf16_f32)
          (shapeCast S2048x4096 x1 shapeCasts_S2048x4096_S2048x4096) (constant S256x4096 .f32 0x00000000#32) (ix2 p q)
        * broadcastTo S256x4096 (shapeCast S1x4096 x2 shapeCasts_S1x4096_S1x4096) broadcasts_S1x4096_S256x4096 (ix2 p q)
        + broadcastTo S256x4096 (shapeCast S1x4096 x3 shapeCasts_S1x4096_S1x4096) broadcasts_S1x4096_S256x4096 (ix2 p q)) = _
  rw [hM, hS, hT]
  rfl

/-- The second stage's stored value at `(p, l)`. -/
theorem stored_out (y0 : FVec Ideal S512x4096 .bf16) (y1 : FVec Ideal S4096x2048 .bf16) (y2 : FVec Ideal S1x2048 .f32)
    (p : Fin 512) (l : Fin 2048) :
    k1_pay1 (F := Ideal) y0 y1 y2 (ix2 p l)
      = (∑ j : Fin 4096, y0 (ix2 p j) * y1 (ix2 j l)) + y2 (ix2 (0 : Fin 1) l) := by
  have hM : matmul (F := Ideal) dot_S512x4096_S4096x2048_S512x2048_1_0_0_1_n_n none
        (shapeCast S512x4096 y0 shapeCasts_S512x4096_S512x4096)
        (shapeCast S4096x2048 y1 shapeCasts_S4096x2048_S4096x2048) (constant S512x2048 .f32 0x00000000#32) (ix2 p l)
      = ∑ j : Fin 4096, y0 (ix2 p j) * y1 (ix2 j l) := by
    rw [shapeCast_self, shapeCast_self, dims_out]
    exact Cert.Lib.PlainDot.matmul_zero_apply 512 4096 2048 none y0 y1 p l
  have hO : broadcastTo S512x2048 (shapeCast S1x2048 y2 shapeCasts_S1x2048_S1x2048) broadcasts_S1x2048_S512x2048 (ix2 p l)
      = y2 (ix2 (0 : Fin 1) l) := by
    rw [shapeCast_self]; exact broadcastTo_1b_ab_apply y2 broadcasts_S1x2048_S512x2048 p l
  unfold k1_pay1
  show matmul (F := Ideal) dot_S512x4096_S4096x2048_S512x2048_1_0_0_1_n_n none
        (shapeCast S512x4096 y0 shapeCasts_S512x4096_S512x4096)
        (shapeCast S4096x2048 y1 shapeCasts_S4096x2048_S4096x2048) (constant S512x2048 .f32 0x00000000#32) (ix2 p l)
      + broadcastTo S512x2048 (shapeCast S1x2048 y2 shapeCasts_S1x2048_S1x2048) broadcasts_S1x2048_S512x2048 (ix2 p l) = _
  rw [hM, hO]

end Cert.KernelIdeal.Body

end
-- ==== Proof.KernelHost.lean ====
/-
  What the host operations before the two stages leave in the stages' operands.

  Before the first stage the program computes, per channel, the scan scale `ys = softplus dt * (0 + ∑ n, B n * C n) + D`,
  the convolution's last tap `cl`, the folded scale `s = cl + ys` and the folded offset `t = b * s + cb`, and lays `s`,
  `t` and the output offset out as one-row arrays; the two weight matrices are narrowed, which at the ideal values
  changes nothing. The per-channel vectors are the same compositions of operations that the reference's stages `cl`
  and `ys` name, so they are stated through those names.
-/
import proofs.«112826_j11158325035373_2_alg».proof.Proof.Gen.KernelIdeal.Frame
import proofs.«112826_j11158325035373_2_alg».proof.Proof.Gen.ReferenceIdeal.Read
import Idealize.ShloMosaic.Lib.StableHlo.Run

set_option maxRecDepth 16384

noncomputable section

namespace Cert.KernelIdeal.Prelude

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The convolution's last tap, per channel: column `3` of the `4096 × 4` kernel array. -/
def lastTap : S4096.Idx → EReal :=
  Cert.ReferenceIdeal.Read.val_main_v5 (F := Ideal) (m ((c.tc : Thread nD τ).loc main_arg3))

/-- The scan scale, per channel: `softplus dt * (0 + ∑ n, B n * C n) + D`. -/
def scanScale : S4096.Idx → EReal :=
  Cert.ReferenceIdeal.Read.val_main_v18 (F := Ideal) (m ((c.tc : Thread nD τ).loc main_arg6)) (m ((c.tc : Thread nD τ).loc main_arg7))
    (m ((c.tc : Thread nD τ).loc main_arg8)) (m ((c.tc : Thread nD τ).loc main_arg9))

/-- The folded scale, per channel. -/
def foldedScale : S4096.Idx → EReal := addf (F := Ideal) (φ := .f32) (lastTap m c) (scanScale m c)

/-- The folded offset, per channel. -/
def foldedOffset : S4096.Idx → EReal :=
  addf (F := Ideal) (φ := .f32) (mulf (F := Ideal) (φ := .f32) (m ((c.tc : Thread nD τ).loc main_arg2)) (foldedScale m c))
    (m ((c.tc : Thread nD τ).loc main_arg4))

/-- The first stage finds the rows of `x` as launched. -/
theorem rows_eq : V2 m ρ c main_arg0 = m ((c.tc : Thread nD τ).loc main_arg0) := by
  show StableHlo.after hostOps0_1 (StableHlo.after hostOps0 (W0 m ρ c)) (Proc.devRef .tc main_arg0) = _
  after_results_simp <;> rfl

/-- The first stage's weight operand is the first weight matrix, narrowed. -/
theorem weight_in_eq :
    V2 m ρ c main_v13 = truncf (F := Ideal) (s := S2048x4096) (φ := .f32) .bf16 (m ((c.tc : Thread nD τ).loc main_arg1)) bitsLt_bf16_f32 := by
  show StableHlo.after hostOps0_1 (StableHlo.after hostOps0 (W0 m ρ c)) (Proc.devRef .tc main_v13) = _
  after_results_simp <;> rfl

set_option maxHeartbeats 2000000 in
/-- The first stage's scale operand is the folded scale as one row. -/
theorem scale_row_eq : V2 m ρ c main_v10 = shapeCast S1x4096 (foldedScale m c) shapeCasts_S4096_S1x4096 := by
  unfold foldedScale lastTap scanScale
  unfold Cert.ReferenceIdeal.Read.val_main_v5 Cert.ReferenceIdeal.Read.val_main_v4 Cert.ReferenceIdeal.Read.val_main_v18 Cert.ReferenceIdeal.Read.val_main_v17 Cert.ReferenceIdeal.Read.val_main_v16 Cert.ReferenceIdeal.Read.val_main_v15 Cert.ReferenceIdeal.Read.val_main_cst Cert.ReferenceIdeal.Read.val_main_v12 Cert.ReferenceIdeal.Read.val_main_call0_v11 Cert.ReferenceIdeal.Read.val_main_call0_v10 Cert.ReferenceIdeal.Read.val_main_call0_v9 Cert.ReferenceIdeal.Read.val_main_call0_v8 Cert.ReferenceIdeal.Read.val_main_call0_v7 Cert.ReferenceIdeal.Read.val_main_call0_v6 Cert.ReferenceIdeal.Read.val_main_call0_v5 Cert.ReferenceIdeal.Read.val_main_call0_v4 Cert.ReferenceIdeal.Read.val_main_call0_v3 Cert.ReferenceIdeal.Read.val_main_call0_v2 Cert.ReferenceIdeal.Read.val_main_call0_v1 Cert.ReferenceIdeal.Read.val_main_call0_v0 Cert.ReferenceIdeal.Read.val_main_call0_cst
  show StableHlo.after hostOps0_1 (StableHlo.after hostOps0 (W0 m ρ c)) (Proc.devRef .tc main_v10) = _
  after_results_simp <;> rfl

set_option maxHeartbeats 2000000 in
/-- The first stage's offset operand is the folded offset as one row. -/
theorem offset_row_eq : V2 m ρ c main_v11 = shapeCast S1x4096 (foldedOffset m c) shapeCasts_S4096_S1x4096 := by
  unfold foldedOffset foldedScale lastTap scanScale
  unfold Cert.ReferenceIdeal.Read.val_main_v5 Cert.ReferenceIdeal.Read.val_main_v4 Cert.ReferenceIdeal.Read.val_main_v18 Cert.ReferenceIdeal.Read.val_main_v17 Cert.ReferenceIdeal.Read.val_main_v16 Cert.ReferenceIdeal.Read.val_main_v15 Cert.ReferenceIdeal.Read.val_main_cst Cert.ReferenceIdeal.Read.val_main_v12 Cert.ReferenceIdeal.Read.val_main_call0_v11 Cert.ReferenceIdeal.Read.val_main_call0_v10 Cert.ReferenceIdeal.Read.val_main_call0_v9 Cert.ReferenceIdeal.Read.val_main_call0_v8 Cert.ReferenceIdeal.Read.val_main_call0_v7 Cert.ReferenceIdeal.Read.val_main_call0_v6 Cert.ReferenceIdeal.Read.val_main_call0_v5 Cert.ReferenceIdeal.Read.val_main_call0_v4 Cert.ReferenceIdeal.Read.val_main_call0_v3 Cert.ReferenceIdeal.Read.val_main_call0_v2 Cert.ReferenceIdeal.Read.val_main_call0_v1 Cert.ReferenceIdeal.Read.val_main_call0_v0 Cert.ReferenceIdeal.Read.val_main_call0_cst
  show StableHlo.after hostOps0_1 (StableHlo.after hostOps0 (W0 m ρ c)) (Proc.devRef .tc main_v11) = _
  after_results_simp <;> rfl

/-- The second stage's weight operand is the second weight matrix, narrowed (the first stage does not write it). -/
theorem weight_out_eq :
    V3 m ρ c main_v14 = truncf (F := Ideal) (s := S4096x2048) (φ := .f32) .bf16 (m ((c.tc : Thread nD τ).loc main_arg10)) bitsLt_bf16_f32 := by
  refine (W3_of_ne m ρ c main_v14 (by decide)).trans ?_
  show StableHlo.after hostOps0_1 (StableHlo.after hostOps0 (W0 m ρ c)) (Proc.devRef .tc main_v14) = _
  after_results_simp <;> rfl

/-- The second stage's offset operand is the output offset as one row (the first stage does not write it). -/
theorem out_offset_row_eq :
    V3 m ρ c main_v12 = shapeCast S1x2048 (m ((c.tc : Thread nD τ).loc main_arg11)) shapeCasts_S2048_S1x2048 := by
  refine (W3_of_ne m ρ c main_v12 (by decide)).trans ?_
  show StableHlo.after hostOps0_1 (StableHlo.after hostOps0 (W0 m ρ c)) (Proc.devRef .tc main_v12) = _
  after_results_simp <;> rfl

end Cert.KernelIdeal.Prelude

end
-- ==== Proof.KernelStage1.lean ====
/-
  The first stage's output array after its whole grid: the gated activations.

  Grid point `t` of `128` works on rows `256 t … 256 t + 255`: its input block of `x` and its output block are those rows,
  the weight matrix and the two one-row arrays are whole at every point. So what point `t` writes back is, at `(p, q)`
  of its block, the gate of `(∑ k, x (256 t + p, k) * w (k, q)) * s q + o q` with `s = cl + ys` and `o = b * s + cb` — the
  restriction to its rows of ONE array, the gated activations of the specification. The blocks cover every row (row `r`
  lies in the block of point `r / 256`), so after the last point the array is that one.
-/
import proofs.«112826_j11158325035373_2_alg».proof.Proof.Gen.KernelIdeal.Frame
import proofs.«112826_j11158325035373_2_alg».proof.Proof.KernelBody
import proofs.«112826_j11158325035373_2_alg».proof.Proof.KernelHost
import proofs.«112826_j11158325035373_2_alg».proof.Proof.Spec
import Idealize.ShloMosaic.Lib.Pipeline.Value
import Idealize.ShloMosaic.Lib.ValueLayout

set_option maxRecDepth 16384

noncomputable section

open scoped BigOperators

namespace Cert.KernelIdeal.Stage1

open Cert.KernelIdeal Cert.KernelIdeal.Gen Idealize.ShloMosaic Idealize.ShloMosaic.TcCoe Idealize.SL.Sem
open Idealize.ShloMosaic.ValueIdx Cert.GatedStep Cert.KernelIdeal.Prelude Cert.KernelIdeal.Body
open Idealize.ShloMosaic.Pipeline (Dat)

variable (m : (ℓ : Loc nD τ sig) → Buf (Elt Ideal) ℓ) (ρ : Dev nD → PrngReg) (c : Dev nD)

theorem zeros : (![0, 0] : Fin 2 → Nat) = fun _ => 0 := funext fun a => by fin_cases a <;> rfl

/-- The gated activations of the arguments: what the first stage's output array ends holding. -/
def acts : S32768x4096.Idx → EReal :=
  actArr (m ((c.tc : Thread nD τ).loc main_arg0)) (m ((c.tc : Thread nD τ).loc main_arg1)) (m ((c.tc : Thread nD τ).loc main_arg2)) (lastTap m c) (m ((c.tc : Thread nD τ).loc main_arg4)) (scanScale m c)

/-- The block indices over the grid: the rows' and the output's blocks move with the point, the others stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 128 := lt_of_lt_of_eq t.isLt N_0

/-- Row `p` of point `t`'s block is row `256 t + p` of the array. -/
def rowAt (t : Fin cfg0.N) (p : Fin 256) : Fin 32768 := ⟨t.val * 256 + p.val, by have := point_lt t; have := p.isLt; omega⟩

/-- The rows' block at point `t`. -/
theorem rows_block (t : Fin cfg0.N) (p : Fin 256) (k : Fin 2048) :
    iblk0 (V2 m ρ) c 0 t (ix2 p k) = m ((c.tc : Thread nD τ).loc main_arg0) (ix2 (rowAt t p) k) := by
  obtain ⟨e0, e1, -⟩ := block_indices t
  show V2 m ρ c main_arg0 (((cfg0.win 0).blk t).view.emb (ix2 p k)) = _
  rw [rows_eq]
  refine congrArg _ (funext fun a => Fin.ext ?_)
  match a with
  | ⟨0, _⟩ => show win0_0.index t (0 : Fin 2) * 256 + 1 * p.val = t.val * 256 + p.val; rw [e0]; omega
  | ⟨1, _⟩ => show win0_0.index t (1 : Fin 2) * 2048 + 1 * k.val = k.val; rw [e1]; omega

/-- The weight matrix's block at every point is the whole matrix. -/
theorem weight_block (t : Fin cfg0.N) (k : Fin 2048) (q : Fin 4096) :
    iblk0 (V2 m ρ) c 1 t (ix2 k q) = m ((c.tc : Thread nD τ).loc main_arg1) (ix2 k q) := by
  obtain ⟨-, -, e0, e1, -⟩ := block_indices t
  show V2 m ρ c main_v13 (((cfg0.win 1).blk t).view.emb (ix2 k q)) = _
  rw [weight_in_eq]
  show m ((c.tc : Thread nD τ).loc main_arg1) (((cfg0.win 1).blk t).view.emb (ix2 k q)) = _
  refine congrArg _ (funext fun a => Fin.ext ?_)
  match a with
  | ⟨0, _⟩ => show win0_1.index t (0 : Fin 2) * 2048 + 1 * k.val = k.val; rw [e0]; omega
  | ⟨1, _⟩ => show win0_1.index t (1 : Fin 2) * 4096 + 1 * q.val = q.val; rw [e1]; omega

/-- The scale row's block at every point is the whole row: channel `q`'s folded scale. -/
theorem scale_block (t : Fin cfg0.N) (q : Fin 4096) :
    iblk0 (V2 m ρ) c 2 t (ix2 (0 : Fin 1) q) = lastTap m c (ix1 q) + scanScale m c (ix1 q) := by
  obtain ⟨-, -, -, -, e0, e1, -⟩ := block_indices t
  show V2 m ρ c main_v10 (((cfg0.win 2).blk t).view.emb (ix2 (0 : Fin 1) q)) = _
  rw [scale_row_eq]
  have he : ((cfg0.win 2).blk t).view.emb (ix2 (0 : Fin 1) q) = ix2 (0 : Fin 1) q := funext fun a => Fin.ext (by
    match a with
    | ⟨0, _⟩ => show win0_2.index t (0 : Fin 2) * 1 + 1 * 0 = 0; rw [e0]
    | ⟨1, _⟩ => show win0_2.index t (1 : Fin 2) * 4096 + 1 * q.val = q.val; rw [e1]; omega)
  rw [he]
  exact (shapeCast_a_1a_apply (foldedScale m c) shapeCasts_S4096_S1x4096 0 q).trans rfl

/-- The offset row's block at every point is the whole row: channel `q`'s folded offset. -/
theorem offset_block (t : Fin cfg0.N) (q : Fin 4096) :
    iblk0 (V2 m ρ) c 3 t (ix2 (0 : Fin 1) q)
      = foldedOffset m c (ix1 q) := by
  obtain ⟨-, -, -, -, -, -, e0, e1, -⟩ := block_indices t
  show V2 m ρ c main_v11 (((cfg0.win 3).blk t).view.emb (ix2 (0 : Fin 1) q)) = _
  rw [offset_row_eq]
  have he : ((cfg0.win 3).blk t).view.emb (ix2 (0 : Fin 1) q) = ix2 (0 : Fin 1) q := funext fun a => Fin.ext (by
    match a with
    | ⟨0, _⟩ => show win0_3.index t (0 : Fin 2) * 1 + 1 * 0 = 0; rw [e0]
    | ⟨1, _⟩ => show win0_3.index t (1 : Fin 2) * 4096 + 1 * q.val = q.val; rw [e1]; omega)
  rw [he]
  exact shapeCast_a_1a_apply (foldedOffset m c) shapeCasts_S4096_S1x4096 0 q

/-- Where point `t`'s output block sits in the array. -/
theorem out_emb (t : Fin cfg0.N) (p : Fin 256) (q : Fin 4096) :
    ((cfg0.win 4).blk t).view.emb (ix2 p q) = ix2 (rowAt t p) q := by
  obtain ⟨-, -, -, -, -, -, -, -, e0, e1⟩ := block_indices t
  refine funext fun a => Fin.ext ?_
  match a with
  | ⟨0, _⟩ => show win0_4.index t (0 : Fin 2) * 256 + 1 * p.val = t.val * 256 + p.val; rw [e0]; omega
  | ⟨1, _⟩ => show win0_4.index t (1 : Fin 2) * 4096 + 1 * q.val = q.val; rw [e1]; omega

/-- WHAT POINT `t` WRITES BACK is its block of the gated activations. -/
theorem flushed_eq (t : Fin cfg0.N) :
    (dat0 (V2 m ρ) c).flushed 4 t = ((cfg0.win 4).blk t).view.read (Elt Ideal) (acts m c) := by
  show (cfg0.win 4).cut (grid0.coords t) ((dat0 (V2 m ρ) c).after 4 t) = _
  rw [after0_4]
  unfold out0_4
  rw [View.canon_unit_zero zeros]
  simp only [View.ld_unit_zero (S := S256x2048) zeros, View.ld_unit_zero (S := S2048x4096) zeros,
    View.ld_unit_zero (S := S1x4096) zeros]
  funext j
  obtain ⟨p, q, rfl⟩ : ∃ (p : Fin 256) (q : Fin 4096), j = ix2 p q := ⟨j 0, j 1, eq_ix2 j⟩
  show k0_pay1 (F := Ideal) (iblk0 (V2 m ρ) c 0 t) (iblk0 (V2 m ρ) c 1 t) (iblk0 (V2 m ρ) c 2 t) (iblk0 (V2 m ρ) c 3 t) (ix2 p q)
    = acts m c (((cfg0.win 4).blk t).view.emb (ix2 p q))
  refine (stored_in _ _ _ _ p q).trans ?_
  rw [out_emb, scale_block, offset_block]
  unfold acts
  rw [actArr_ix2]
  unfold preFolded proj
  -- the folded offset of channel `q` is `b q * (cl q + ys q) + cb q` by the definitions of the elementwise operations
  refine congrArg gate (congrArg₂ (· + ·) (congrArg (· * _) (Finset.sum_congr rfl fun k _ => ?_)) rfl)
  rw [rows_block, weight_block]

/-- An index of the array is in point `t`'s block iff each coordinate is in the block's range on its axis. -/
theorem mem_blk (t : Fin cfg0.N) (i : S32768x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v15).slice (win0_4.rect t)).set ↔ _
  rw [View.set_slice_whole, Rect.mem_set_unit]
  exact Iff.rfl

/-- Every index of the array is in the block of the point its row belongs to. -/
theorem cover (i : S32768x4096.Idx) : ∃ t : Fin cfg0.N, (cfg0.win 4).flush t = true ∧ i ∈ ((cfg0.win 4).blk t).view.set := by
  have hi0 : (i 0).val < 32768 := (i 0).isLt
  have hi1 : (i 1).val < 4096 := (i 1).isLt
  have hN : cfg0.N = 128 := N_0
  obtain ⟨t, ht⟩ : ∃ t : Fin cfg0.N, t.val = (i 0).val / 256 := ⟨⟨(i 0).val / 256, by rw [hN]; omega⟩, rfl⟩
  obtain ⟨-, -, -, -, -, -, -, -, e0, e1⟩ := block_indices t
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; rw [e0, ht]; omega
  | ⟨1, _⟩ => show win0_4.index t (1 : Fin 2) * 4096 ≤ (i 1).val ∧ (i 1).val < win0_4.index t (1 : Fin 2) * 4096 + 4096; rw [e1]; omega

/-- THE ARRAY after the first stage's whole grid is the gated activations. -/
theorem final : (dat0 (V2 m ρ) c).arrAt 4 cfg0.N = acts m c :=
  (dat0 (V2 m ρ) c).arrAt_eq_of_cover 4 (acts m c) (fun t _ => flushed_eq m ρ c t) (cover)

end Cert.KernelIdeal.Stage1

end
-- ==== Proof.KernelStage2.lean ====
/-
  The second stage's output array after its whole grid: the output projection of the activations it finds.

  Grid point `t` of `64` works on rows `512 t … 512 t + 511`: its block of the activations `A` and its output block are
  those rows; the second weight matrix and the one-row output offset are whole at every point. What point `t` writes
  back is, at `(p, l)` of its block, `(∑ j, A (512 t + p, j) * w' (j, l)) + o l`: its rows of ONE array, the output
  projection of `A`. The blocks cover every row (row `r` lies in the block of point `r / 512`).
-/
import proofs.«112826_j11158325035373_2_alg».proof.Proof.Gen.KernelIdeal.Frame
import proofs.«112826_j11158325035373_2_alg».proof.Proof.KernelBody
import proofs.«112826_j11158325035373_2_alg».proof.Proof.KernelHost
import proofs.«112826_j11158325035373_2_alg».proof.Proof.Spec
import Idealize.ShloMosaic.Lib.Pipeline.Value
import Idealize.ShloMosaic.Lib.ValueLayout

set_option maxRecDepth 16384

noncomputable section

open scoped BigOperators

namespace Cert.KernelIdeal.Stage2

open Cert.KernelIdeal Cert.KernelIdeal.Gen Idealize.ShloMosaic Idealize.ShloMosaic.TcCoe Idealize.SL.Sem
open Idealize.ShloMosaic.ValueIdx Cert.GatedStep Cert.KernelIdeal.Prelude Cert.KernelIdeal.Body
open Idealize.ShloMosaic.Pipeline (Dat)

variable (m : (ℓ : Loc nD τ sig) → Buf (Elt Ideal) ℓ) (ρ : Dev nD → PrngReg) (c : Dev nD)
variable (A : S32768x4096.Idx → EReal) (hA : V3 m ρ c main_v15 = A)

theorem zeros : (![0, 0] : Fin 2 → Nat) = fun _ => 0 := funext fun a => by fin_cases a <;> rfl

/-- The output projection of the activations `A`: what the second stage's output array ends holding. -/
def outs : S32768x2048.Idx → EReal := outArr A (m ((c.tc : Thread nD τ).loc main_arg10)) (m ((c.tc : Thread nD τ).loc main_arg11))

/-- The block indices over the grid: the activations' and the output's blocks move with the point, the others stay. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 64 := lt_of_lt_of_eq t.isLt N_1

/-- Row `p` of point `t`'s block is row `512 t + p` of the array. -/
def rowAt (t : Fin cfg1.N) (p : Fin 512) : Fin 32768 := ⟨t.val * 512 + p.val, by have := point_lt t; have := p.isLt; omega⟩

include hA in
/-- The activations' block at point `t`. -/
theorem acts_block (t : Fin cfg1.N) (p : Fin 512) (j : Fin 4096) :
    iblk1 (V3 m ρ) c 0 t (ix2 p j) = A (ix2 (rowAt t p) j) := by
  obtain ⟨e0, e1, -⟩ := block_indices t
  show V3 m ρ c main_v15 (((cfg1.win 0).blk t).view.emb (ix2 p j)) = _
  rw [hA]
  refine congrArg _ (funext fun a => Fin.ext ?_)
  match a with
  | ⟨0, _⟩ => show win1_0.index t (0 : Fin 2) * 512 + 1 * p.val = t.val * 512 + p.val; rw [e0]; omega
  | ⟨1, _⟩ => show win1_0.index t (1 : Fin 2) * 4096 + 1 * j.val = j.val; rw [e1]; omega

/-- The weight matrix's block at every point is the whole matrix. -/
theorem weight_block (t : Fin cfg1.N) (j : Fin 4096) (l : Fin 2048) :
    iblk1 (V3 m ρ) c 1 t (ix2 j l) = m ((c.tc : Thread nD τ).loc main_arg10) (ix2 j l) := by
  obtain ⟨-, -, e0, e1, -⟩ := block_indices t
  show V3 m ρ c main_v14 (((cfg1.win 1).blk t).view.emb (ix2 j l)) = _
  rw [weight_out_eq]
  show m ((c.tc : Thread nD τ).loc main_arg10) (((cfg1.win 1).blk t).view.emb (ix2 j l)) = _
  refine congrArg _ (funext fun a => Fin.ext ?_)
  match a with
  | ⟨0, _⟩ => show win1_1.index t (0 : Fin 2) * 4096 + 1 * j.val = j.val; rw [e0]; omega
  | ⟨1, _⟩ => show win1_1.index t (1 : Fin 2) * 2048 + 1 * l.val = l.val; rw [e1]; omega

/-- The offset row's block at every point is the whole row: column `l`'s output offset. -/
theorem offset_block (t : Fin cfg1.N) (l : Fin 2048) :
    iblk1 (V3 m ρ) c 2 t (ix2 (0 : Fin 1) l) = m ((c.tc : Thread nD τ).loc main_arg11) (ix1 l) := by
  obtain ⟨-, -, -, -, e0, e1, -⟩ := block_indices t
  show V3 m ρ c main_v12 (((cfg1.win 2).blk t).view.emb (ix2 (0 : Fin 1) l)) = _
  rw [out_offset_row_eq]
  have he : ((cfg1.win 2).blk t).view.emb (ix2 (0 : Fin 1) l) = ix2 (0 : Fin 1) l := funext fun a => Fin.ext (by
    match a with
    | ⟨0, _⟩ => show win1_2.index t (0 : Fin 2) * 1 + 1 * 0 = 0; rw [e0]
    | ⟨1, _⟩ => show win1_2.index t (1 : Fin 2) * 2048 + 1 * l.val = l.val; rw [e1]; omega)
  rw [he]
  exact shapeCast_a_1a_apply (m ((c.tc : Thread nD τ).loc main_arg11)) shapeCasts_S2048_S1x2048 0 l

/-- Where point `t`'s output block sits in the array. -/
theorem out_emb (t : Fin cfg1.N) (p : Fin 512) (l : Fin 2048) :
    ((cfg1.win 3).blk t).view.emb (ix2 p l) = ix2 (rowAt t p) l := by
  obtain ⟨-, -, -, -, -, -, e0, e1⟩ := block_indices t
  refine funext fun a => Fin.ext ?_
  match a with
  | ⟨0, _⟩ => show win1_3.index t (0 : Fin 2) * 512 + 1 * p.val = t.val * 512 + p.val; rw [e0]; omega
  | ⟨1, _⟩ => show win1_3.index t (1 : Fin 2) * 2048 + 1 * l.val = l.val; rw [e1]; omega

include hA in
/-- WHAT POINT `t` WRITES BACK is its block of the output projection of `A`. -/
theorem flushed_eq (t : Fin cfg1.N) :
    (dat1 (V3 m ρ) c).flushed 3 t = ((cfg1.win 3).blk t).view.read (Elt Ideal) (outs m c A) := by
  show (cfg1.win 3).cut (grid1.coords t) ((dat1 (V3 m ρ) c).after 3 t) = _
  rw [after1_3]
  unfold out1_3
  rw [View.canon_unit_zero zeros]
  simp only [View.ld_unit_zero (S := S512x4096) zeros, View.ld_unit_zero (S := S4096x2048) zeros,
    View.ld_unit_zero (S := S1x2048) zeros]
  funext i
  obtain ⟨p, l, rfl⟩ : ∃ (p : Fin 512) (l : Fin 2048), i = ix2 p l := ⟨i 0, i 1, eq_ix2 i⟩
  show k1_pay1 (F := Ideal) (iblk1 (V3 m ρ) c 0 t) (iblk1 (V3 m ρ) c 1 t) (iblk1 (V3 m ρ) c 2 t) (ix2 p l)
    = outs m c A (((cfg1.win 3).blk t).view.emb (ix2 p l))
  refine (stored_out _ _ _ p l).trans ?_
  rw [out_emb, offset_block]
  unfold outs
  rw [outArr_ix2]
  refine congrArg (· + _) (Finset.sum_congr rfl fun j _ => ?_)
  rw [acts_block m ρ c A hA, weight_block]

/-- An index of the array is in point `t`'s block iff each coordinate is in the block's range on its axis. -/
theorem mem_blk (t : Fin cfg1.N) (i : S32768x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v16).slice (win1_3.rect t)).set ↔ _
  rw [View.set_slice_whole, Rect.mem_set_unit]
  exact Iff.rfl

/-- Every index of the array is in the block of the point its row belongs to. -/
theorem cover (i : S32768x2048.Idx) : ∃ t : Fin cfg1.N, (cfg1.win 3).flush t = true ∧ i ∈ ((cfg1.win 3).blk t).view.set := by
  have hi0 : (i 0).val < 32768 := (i 0).isLt
  have hi1 : (i 1).val < 2048 := (i 1).isLt
  have hN : cfg1.N = 64 := N_1
  obtain ⟨t, ht⟩ : ∃ t : Fin cfg1.N, t.val = (i 0).val / 512 := ⟨⟨(i 0).val / 512, by rw [hN]; omega⟩, rfl⟩
  obtain ⟨-, -, -, -, -, -, e0, e1⟩ := block_indices t
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; rw [e0, ht]; omega
  | ⟨1, _⟩ => show win1_3.index t (1 : Fin 2) * 2048 ≤ (i 1).val ∧ (i 1).val < win1_3.index t (1 : Fin 2) * 2048 + 2048; rw [e1]; omega

include hA in
/-- THE ARRAY after the second stage's whole grid is the output projection of `A`. -/
theorem final : (dat1 (V3 m ρ) c).arrAt 3 cfg1.N = outs m c A :=
  (dat1 (V3 m ρ) c).arrAt_eq_of_cover 3 (outs m c A) (fun t _ => flushed_eq m ρ c A hA t) (cover)

end Cert.KernelIdeal.Stage2

end
-- ==== Proof.KernelValue.lean ====
/-
  The two-stage program's result as one function of its arguments.

  The result array is the second stage's array after its grid, which is the output projection of the activations the
  second stage finds; those are the first stage's array after its grid, the gated activations of the arguments. So every
  weakly fair execution ends with the result at the output projection of the gated, folded pre-activation.
-/
import proofs.«112826_j11158325035373_2_alg».proof.Proof.KernelRun
import proofs.«112826_j11158325035373_2_alg».proof.Proof.KernelStage1
import proofs.«112826_j11158325035373_2_alg».proof.Proof.KernelStage2

noncomputable section

namespace Cert.KernelIdeal.Named

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The program's result as a function of its arguments: the output projection of the gated activations. -/
def result (c : Dev nD) : S32768x2048.Idx → EReal := Stage2.outs m c (Stage1.acts m c)

/-- The last boundary's contents at the result's buffer are that function. -/
theorem result_value (c : Dev nD) : W4 m ρ c (Proc.devRef .tc main_v16) = result m c :=
  (result_eq m ρ c).trans (Stage2.final m ρ c (Stage1.acts m c) ((act_eq m ρ c).trans (Stage1.final m ρ c)))

/-- Every weakly fair execution terminates, nothing faulting, with the result at that function of the arguments and
    the arguments as launched. -/
theorem run_value : θ_run defs (onTc (τ := τ) (main (F := Ideal))) ⟨m, fun _ => 0, ρ⟩ (fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_value m ρ c), (h c).2⟩) (run m ρ)

end Cert.KernelIdeal.Named

end
-- ==== Proof.lean ====
/-
  The proof of `Cert.Claim`: a one-step gated state-space layer computed in two pipelined stages, against its
  plain reference, on the extended reals.

  Both programs project the rows of `x` to `4096` channels, gate an affine function of the projection, and project back.
  The reference forms the pre-activation directly, `((u + b) * cl + cb) + (u + b) * ys`; the two-stage program folds it
  into `u * (cl + ys) + (b * (cl + ys) + cb)` on the host and gates it inside its first stage. The two agree when every
  quantity is a real number (distributivity), which the precondition gives: every input entry is real, hence so are the
  projection (a finite sum of products), the convolution's last tap, and the scan scale (the softplus of a real is real).
  The gate is the logistic function times its argument on both sides, and the output projection is the same sum.

  The pieces: the precondition read as "every entry is real" (Proof/FiniteInputs), the specification and its law
  (Proof/Spec), the reference's result as the specification's function (Proof/RefValue, over the reference's run read
  one operation at a time), the two-stage program's run with its result named (Proof/KernelRun), the host operations'
  values (Proof/KernelHost), each stage's body at an index (Proof/KernelBody) and each stage's array after its grid
  (Proof/KernelStage1, Proof/KernelStage2), joined in Proof/KernelValue. The three frame claims are the programs' runs
  with the result dropped; no rewrite was applied between the program and its idealization.
-/
import proofs.«112826_j11158325035373_2_alg».proof.Defs
import proofs.«112826_j11158325035373_2_alg».proof.Proof.Gen.Kernel
import proofs.«112826_j11158325035373_2_alg».proof.Proof.Gen.Kernel.Skeleton
import proofs.«112826_j11158325035373_2_alg».proof.Proof.Gen.Kernel.Launch
import proofs.«112826_j11158325035373_2_alg».proof.Proof.Gen.Kernel.Points
import proofs.«112826_j11158325035373_2_alg».proof.Proof.Gen.Kernel.Frame
import proofs.«112826_j11158325035373_2_alg».proof.Proof.Gen.KernelIdeal
import proofs.«112826_j11158325035373_2_alg».proof.Proof.Gen.KernelIdeal.Skeleton
import proofs.«112826_j11158325035373_2_alg».proof.Proof.Gen.KernelIdeal.Launch
import proofs.«112826_j11158325035373_2_alg».proof.Proof.Gen.KernelIdeal.Points
import proofs.«112826_j11158325035373_2_alg».proof.Proof.Gen.KernelIdeal.Frame
import proofs.«112826_j11158325035373_2_alg».proof.Proof.Gen.ReferenceIdeal
import proofs.«112826_j11158325035373_2_alg».proof.Proof.Gen.Pre_finite_inputs
import proofs.«112826_j11158325035373_2_alg».proof.Proof.Gen.ReferenceIdeal.Run
import proofs.«112826_j11158325035373_2_alg».proof.Proof.Gen.ReferenceIdeal.Read
import proofs.«112826_j11158325035373_2_alg».proof.Proof.FiniteInputs
import proofs.«112826_j11158325035373_2_alg».proof.Proof.RefValue
import proofs.«112826_j11158325035373_2_alg».proof.Proof.KernelValue
import Idealize.ShloMosaic.Adequacy
import Idealize.ShloMosaic.Init

noncomputable section

namespace Cert.Proof

open Idealize.ShloMosaic Idealize.SL.Sem

/-- The word-level program runs and keeps its arguments. -/
theorem frame_k : Cert.frame_Kernel := fun m ρ _ => Cert.Kernel.Gen.frame m ρ

/-- The idealized program runs and keeps its arguments. -/
theorem frame_ki : Cert.frame_KernelIdeal := fun m ρ _ => Cert.KernelIdeal.Gen.frame m ρ

/-- The idealized reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, all real, the two programs end with the same result: the output
    projection of the gated pre-activation, folded in one program and direct in the other. -/
theorem algebraic : Cert.algebraic_KernelIdeal_ReferenceIdeal := by
  intro m ρ m' ρ' hpre hagree
  refine ⟨fun c => Cert.KernelIdeal.Named.result m c, Cert.KernelIdeal.Named.run_value m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11⟩ := hagree c
  obtain ⟨h0, h1, h2, h3, h4, h6, h7, h8, h9, h10, h11⟩ := Cert.FiniteInputs.allReal_of_pre
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (hpre c)
  rw [Cert.ReferenceIdeal.Read.val_main_v27_eq, g0, g1, g2, g3, g4, g6, g7, g8, g9, g10, g11]
  exact Cert.ReferenceIdeal.RefValue.result_eq _ _ _ _ _ _ _ _ _ _ _ h0 h1 h2 h3 h4 h6 h7 h8 h9

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
